-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x1600000 : Shape := ⟨2, ![2, 1600000]⟩
abbrev S100000 : Shape := ⟨1, ![100000]⟩
abbrev S64x9 : Shape := ⟨2, ![64, 9]⟩
abbrev S64 : Shape := ⟨1, ![64]⟩
abbrev S128x64 : Shape := ⟨2, ![128, 64]⟩
abbrev S128 : Shape := ⟨1, ![128]⟩
abbrev S64x128 : Shape := ⟨2, ![64, 128]⟩
abbrev S11x64 : Shape := ⟨2, ![11, 64]⟩
abbrev S11 : Shape := ⟨1, ![11]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S11x64 : S_.BroadcastsInDim S11x64 (![] : Fin 0 → Fin S11x64.rank)
  reducesTo_S11x64_S_d0_1 : S11x64.ReducesTo [0, 1] S_
  bcast_S_S11 : S_.BroadcastsInDim S11 (![] : Fin 0 → Fin S11.rank)
  reducesTo_S11_S_d0 : S11.ReducesTo [0] S_

variable [Facts]

def fn_part2 {F : FTy → Type} [FloatOps F] (main_arg9 : FVec F S11x64 .f32) (main_arg10 : FVec F S11 .f32) (main_v33 : IVec S_ 1) : IVec S_ 1 :=
  let main_v34 : FVec F S11x64 .f32 := Host.absf main_arg9
  let main_cst_12 : FVec F S_ .f32 := constant S_ .f32 0x7F800000#32
  let main_v35 : FVec F S11x64 .f32 := broadcastInDim S11x64 ![] bcast_S_S11x64 main_cst_12
  let main_v36 : IVec S11x64 1 := cmpf .olt main_v34 main_v35
  let main_c_13 : IVec S_ 1 := constantI S_ 1 1#1
  let main_v37 : IVec S_ 1 := (fun x v => Host.reduce IntOp.andi x v reducesTo_S11x64_S_d0_1 h_S_) main_v36 main_c_13
  let main_v38 : IVec S_ 1 := andi main_v33 main_v37
  let main_v39 : FVec F S11 .f32 := Host.absf main_arg10
  let main_cst_14 : FVec F S_ .f32 := constant S_ .f32 0x7F800000#32
  let main_v40 : FVec F S11 .f32 := broadcastInDim S11 ![] bcast_S_S11 main_cst_14
  let main_v41 : IVec S11 1 := cmpf .olt main_v39 main_v40
  let main_c_15 : IVec S_ 1 := constantI S_ 1 1#1
  let main_v42 : IVec S_ 1 := (fun x v => Host.reduce IntOp.andi x v reducesTo_S11_S_d0 h_S_) main_v41 main_c_15
  let main_v43 : IVec S_ 1 := andi main_v38 main_v42
  main_v43

def fn_part1 {F : FTy → Type} [FloatOps F] (main_arg6 : FVec F S128 .f32) (main_arg7 : FVec F S64x128 .f32) (main_arg8 : FVec F S64 .f32) (main_arg9 : FVec F S11x64 .f32) (main_arg10 : FVec F S11 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x9 .f32) (main_arg1 : IVec S2x1600000 32) (main_arg2 : IVec S100000 32) (main_arg3 : FVec F S64x9 .f32) (main_arg4 : FVec F S64 .f32) (main_arg5 : FVec F S128x64 .f32) (main_arg6 : FVec F S128 .f32) (main_arg7 : FVec F S64x128 .f32) (main_arg8 : FVec F S64 .f32) (main_arg9 : FVec F S11x64 .f32) (main_arg10 : FVec F S11 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_v13 main_v16
-- ==== Kernel.lean ====
abbrev S100000x9 : Shape := ⟨2, ![100000, 9]⟩
abbrev S2x1600000 : Shape := ⟨2, ![2, 1600000]⟩
abbrev S100000 : Shape := ⟨1, ![100000]⟩
abbrev S64x9 : Shape := ⟨2, ![64, 9]⟩
abbrev S64 : Shape := ⟨1, ![64]⟩
abbrev S128x64 : Shape := ⟨2, ![128, 64]⟩
abbrev S128 : Shape := ⟨1, ![128]⟩
abbrev S64x128 : Shape := ⟨2, ![64, 128]⟩
abbrev S11x64 : Shape := ⟨2, ![11, 64]⟩
abbrev S11 : Shape := ⟨1, ![11]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S1x64 : Shape := ⟨2, ![1, 64]⟩
abbrev S100000x64 : Shape := ⟨2, ![100000, 64]⟩
abbrev S5000x9 : Shape := ⟨2, ![5000, 9]⟩
abbrev S5000x64 : Shape := ⟨2, ![5000, 64]⟩
abbrev S1600000x64 : Shape := ⟨2, ![1600000, 64]⟩
abbrev S1x128 : Shape := ⟨2, ![1, 128]⟩
abbrev S100000x128 : Shape := ⟨2, ![100000, 128]⟩
abbrev S5000x128 : Shape := ⟨2, ![5000, 128]⟩
abbrev S1600000x128 : Shape := ⟨2, ![1600000, 128]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S64x11 : Shape := ⟨2, ![64, 11]⟩
abbrev S512x11 : Shape := ⟨2, ![512, 11]⟩
abbrev S1x11 : Shape := ⟨2, ![1, 11]⟩

abbrev nBuf : Space → Nat
  | .hbm => 81
  | .vmem => 24
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S100000, .i32⟩
  | .hbm, ⟨3, _⟩ => ⟨S64x9, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S11x64, .f32⟩
  | .hbm, ⟨10, _⟩ => ⟨S11, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x9, .f32⟩
  | .hbm, ⟨24, _⟩ => ⟨S_, .f32⟩
  | .hbm, ⟨25, _⟩ => ⟨S100000x9, .f32⟩
  | .hbm, ⟨26, _⟩ => ⟨S1600000x1, .i32⟩
  | .hbm, ⟨27, _⟩ => ⟨S100000x9, .f32⟩
  | .hbm, ⟨28, _⟩ => ⟨S1x64, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x64, .f32⟩
  | .hbm, ⟨59, _⟩ => ⟨S100000x64, .f32⟩
  | .hbm, ⟨60, _⟩ => ⟨S_, .f32⟩
  | .hbm, ⟨61, _⟩ => ⟨S512x64, .f32⟩
  | .hbm, ⟨62, _⟩ => ⟨S100000x1, .i32⟩
  | .hbm, ⟨63, _⟩ => ⟨S512x64, .f32⟩
  | .hbm, ⟨64, _⟩ => ⟨S_, .f32⟩
  | .hbm, ⟨65, _⟩ => ⟨S100000, .f32⟩
  | .hbm, ⟨66, _⟩ => ⟨S_, .f32⟩
  | .hbm, ⟨67, _⟩ => ⟨S512, .f32⟩
  | .hbm, ⟨68, _⟩ => ⟨S100000x1, .i32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S512x1, .f32⟩
  | .hbm, ⟨74, _⟩ => ⟨S512x64, .f32⟩
  | .hbm, ⟨75, _⟩ => ⟨S512x64, .f32⟩
  | .hbm, ⟨76, _⟩ => ⟨S64x11, .f32⟩
  | .hbm, ⟨77, _⟩ => ⟨S512x11, .f32⟩
  | .hbm, ⟨78, _⟩ => ⟨S1x11, .f32⟩
  | .hbm, ⟨79, _⟩ => ⟨S512x11, .f32⟩
  | .hbm, ⟨80, _⟩ => ⟨S512x11, .f32⟩
  | .local _ .vmem, ⟨0, _⟩ => ⟨S5000x9, .f32⟩
  | .local _ .vmem, ⟨1, _⟩ => ⟨S5000x9, .f32⟩
  | .local _ .vmem, ⟨2, _⟩ => ⟨S5000x9, .f32⟩
  | .local _ .vmem, ⟨3, _⟩ => ⟨S5000x9, .f32⟩
  | .local _ .vmem, ⟨4, _⟩ => ⟨S64x9, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S128x64, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S64x128, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  shapeCasts_S64_S1x64 : S64.ShapeCasts S1x64
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  bitsLt_bf16_f32 : FTy.bits .bf16 < FTy.bits .f32
  inb_S64x9_S64x9_0_0 : ∀ a, (![0, 0] : Fin 2 → Nat) a + S64x9.size a ≤ S64x9.size a
  h_S64x9 : 0 < S64x9.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S128_S1x128 : S128.ShapeCasts S1x128
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S11x64_S64x11_1_0 : S11x64.Transposes [1, 0] S64x11
  bcast_S11_S1x11_1 : S11.BroadcastsInDim S1x11 (![1] : Fin 1 → Fin S1x11.rank)
  bcast_S1x11_S512x11_0_1 : S1x11.BroadcastsInDim S512x11 (![0, 1] : Fin 2 → Fin S512x11.rank)
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S5000x9_S64x9_S5000x64_1_1_0_0_n_n_wf : DotDims.WF S5000x9 S64x9 S5000x64 [1] [1] [0] [0] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S128x64_S5000x128_1_1_0_0_n_n_wf : DotDims.WF S5000x64 S128x64 S5000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S64x128_S5000x64_1_1_0_0_n_n_wf : DotDims.WF S5000x128 S64x128 S5000x64 [1] [1] [0] [0] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x11_S512x11_1_0_0_1_n_n_wf : DotDims.WF S512x64 S64x11 S512x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S100000x9.size a
  hwx0_0 : ∀ i : grid0.Coords, EltTy.bits .f32 = 32 ∨ (Rect.block (s := S100000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S100000x9.size a
  hwx0_1 : ∀ i : grid0.Coords, EltTy.bits .f32 = 32 ∨ (Rect.block (s := S100000x9) S5000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x9.size a ≤ S64x9.size a
  hwx0_2 : ∀ i : grid0.Coords, EltTy.bits .f32 = 32 ∨ (Rect.block (s := S64x9) S64x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S5000x9_S64x9_S5000x64_1_1_0_0_n_n : DotDims S5000x9 S64x9 S5000x64 where
  lhsContracting := [1]
  rhsContracting := [1]
  lhsNonContracting := [0]
  rhsNonContracting := [0]
  lhsBatch := []
  rhsBatch := []
  wf := dot_S5000x9_S64x9_S5000x64_1_1_0_0_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S128x64_S5000x128_1_1_0_0_n_n : DotDims S5000x64 S128x64 S5000x128 where
  lhsContracting := [1]
  rhsContracting := [1]
  lhsNonContracting := [0]
  rhsNonContracting := [0]
  lhsBatch := []
  rhsBatch := []
  wf := dot_S5000x64_S128x64_S5000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x11_S512x11_1_0_0_1_n_n : DotDims S512x64 S64x11 S512x11 where
  lhsContracting := [1]
  rhsContracting := [0]
  lhsNonContracting := [0]
  rhsNonContracting := [1]
  lhsBatch := []
  rhsBatch := []
  wf := dot_S512x64_S64x11_S512x11_1_0_0_1_n_n_wf

abbrev win0_0 : Pipeline.Window sig grid0 :=
  Pipeline.Window.ofSpec (Memref.whole main_arg0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x9 : Shape := ⟨2, ![100000, 9]⟩
abbrev S2x1600000 : Shape := ⟨2, ![2, 1600000]⟩
abbrev S100000 : Shape := ⟨1, ![100000]⟩
abbrev S64x9 : Shape := ⟨2, ![64, 9]⟩
abbrev S64 : Shape := ⟨1, ![64]⟩
abbrev S128x64 : Shape := ⟨2, ![128, 64]⟩
abbrev S128 : Shape := ⟨1, ![128]⟩
abbrev S64x128 : Shape := ⟨2, ![64, 128]⟩
abbrev S11x64 : Shape := ⟨2, ![11, 64]⟩
abbrev S11 : Shape := ⟨1, ![11]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x9 : Shape := ⟨2, ![1600000, 9]⟩
abbrev S9x64 : Shape := ⟨2, ![9, 64]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S64x11 : Shape := ⟨2, ![64, 11]⟩
abbrev S512x11 : Shape := ⟨2, ![512, 11]⟩
abbrev S1x11 : Shape := ⟨2, ![1, 11]⟩

abbrev nBuf : Space → Nat
  | .hbm => 102
  | .vmem => 0
  | .smem => 0
  | _ => 0

abbrev bufTy : (tb : Table) → Fin (tcTables nBuf tb) → BufTy
  | .hbm, ⟨0, _⟩ => ⟨S100000x9, .f32⟩
  | .hbm, ⟨1, _⟩ => ⟨S2x1600000, .i32⟩
  | .hbm, ⟨2, _⟩ => ⟨S100000, .i32⟩
  | .hbm, ⟨3, _⟩ => ⟨S64x9, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S11x64, .f32⟩
  | .hbm, ⟨10, _⟩ => ⟨S11, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x9, .f32⟩
  | .hbm, ⟨24, _⟩ => ⟨S_, .f32⟩
  | .hbm, ⟨25, _⟩ => ⟨S100000x9, .f32⟩
  | .hbm, ⟨26, _⟩ => ⟨S1600000x1, .i32⟩
  | .hbm, ⟨27, _⟩ => ⟨S100000x9, .f32⟩
  | .hbm, ⟨28, _⟩ => ⟨S100000x9, .f32⟩
  | .hbm, ⟨29, _⟩ => ⟨S9x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S100000x64, .f32⟩
  | .hbm, ⟨51, _⟩ => ⟨S64x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S128x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S512x64, .f32⟩
  | .hbm, ⟨83, _⟩ => ⟨S100000x1, .i32⟩
  | .hbm, ⟨84, _⟩ => ⟨S512x64, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S512, .f32⟩
  | .hbm, ⟨89, _⟩ => ⟨S100000x1, .i32⟩
  | .hbm, ⟨90, _⟩ => ⟨S512, .f32⟩
  | .hbm, ⟨91, _⟩ => ⟨S_, .f32⟩
  | .hbm, ⟨92, _⟩ => ⟨S512, .f32⟩
  | .hbm, ⟨93, _⟩ => ⟨S512, .f32⟩
  | .hbm, ⟨94, _⟩ => ⟨S512x1, .f32⟩
  | .hbm, ⟨95, _⟩ => ⟨S512x64, .f32⟩
  | .hbm, ⟨96, _⟩ => ⟨S512x64, .f32⟩
  | .hbm, ⟨97, _⟩ => ⟨S64x11, .f32⟩
  | .hbm, ⟨98, _⟩ => ⟨S512x11, .f32⟩
  | .hbm, ⟨99, _⟩ => ⟨S1x11, .f32⟩
  | .hbm, ⟨100, _⟩ => ⟨S512x11, .f32⟩
  | .hbm, ⟨101, _⟩ => ⟨S512x11, .f32⟩
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_cst : Ref sig .tc := ⟨.hbm, 56, rfl⟩
abbrev main_call1_v0 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_8 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x9 : S_.BroadcastsInDim S100000x9 (![] : Fin 0 → Fin S100000x9.rank)
  transposes_S64x9_S9x64_1_0 : S64x9.Transposes [1, 0] S9x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S64x128_S128x64_1_0 : S64x128.Transposes [1, 0] S128x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S11x64_S64x11_1_0 : S11x64.Transposes [1, 0] S64x11
  bcast_S11_S1x11_1 : S11.BroadcastsInDim S1x11 (![1] : Fin 1 → Fin S1x11.rank)
  bcast_S1x11_S512x11_0_1 : S1x11.BroadcastsInDim S512x11 (![0, 1] : Fin 2 → Fin S512x11.rank)
  gather_S100000x9_S1600000x1_S1600000x9_1_0_n_n_0_1_19_wf : GatherDims.WF S100000x9 S1600000x1 S1600000x9 [1] [0] [] [0] [] 1 ![1, 9]
  scatter_S100000x9_S1600000x1_S1600000x9_1_0_0_1_wf : ScatterDims.WF S100000x9 S1600000x1 S1600000x9 [1] [0] [0] 1
  dot_S100000x9_S9x64_S100000x64_1_0_0_1_n_n_wf : DotDims.WF S100000x9 S9x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x11_S512x11_1_0_0_1_n_n_wf : DotDims.WF S512x64 S64x11 S512x11 [1] [0] [0] [1] [] []

variable [Facts₀]

def gather_S100000x9_S1600000x1_S1600000x9_1_0_n_n_0_1_19 : GatherDims S100000x9 S1600000x1 S1600000x9 where
  offsetDims := [1]
  collapsedSliceDims := [0]
  operandBatchingDims := []
  startIndicesBatchingDims := []
  startIndexMap := [0]
  indexVectorDim := 1
  sliceSizes := ![1, 9]
  wf := gather_S100000x9_S1600000x1_S1600000x9_1_0_n_n_0_1_19_wf
def scatter_S100000x9_S1600000x1_S1600000x9_1_0_0_1 : ScatterDims S100000x9 S1600000x1 S1600000x9 where
  updateWindowDims := [1]
  insertedWindowDims := [0]
  scatterDimsToOperandDims := [0]
  indexVectorDim := 1
  wf := scatter_S100000x9_S1600000x1_S1600000x9_1_0_0_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x11_S512x11_1_0_0_1_n_n : DotDims S512x64 S64x11 S512x11 where
  lhsContracting := [1]
  rhsContracting := [0]
  lhsNonContracting := [0]
  rhsNonContracting := [1]
  lhsBatch := []
  rhsBatch := []
  wf := dot_S512x64_S64x11_S512x11_1_0_0_1_n_n_wf

class Facts : Prop extends Facts₀ where

variable [Facts]
-- ==== Proof.RunResult.lean ====
/-
  The whole program's run with its result named.

  The program is seven segments: four stretches of host operations and, between them, the three
  row-block sweeps. The segments' run ends with every unscoped buffer holding the last boundary's
  contents; read at the result buffer this says what the program returns, and read at each argument
  that the argument is unchanged.
-/
import proofs.«106725_j20461224198769_1_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last
    boundary's contents and every argument as launched. -/
theorem run_result : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v56 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.Chain

end
-- ==== Proof.Stretch0.lean ====
/-
  The host operations before the first sweep, from any starting contents: the edge list is split into
  its source and destination rows, the source rows are normalised and used to gather node-feature
  rows, the gathered rows are summed into their destination rows, and the first bias is reshaped to
  one row. These are, operation for operation, the plain program's first operations, so each buffer
  the later segments read holds the plain program's value of the same arguments.
-/
import proofs.«106725_j20461224198769_1_alg».proof.Proof.Gen.KernelIdeal.Launch
import proofs.«106725_j20461224198769_1_alg».proof.Proof.Gen.ReferenceIdeal.Read
import Idealize.ShloMosaic.Lib.StableHlo.Run

noncomputable section

namespace Cert.KernelIdeal.Stretch0

open Cert.KernelIdeal Cert.KernelIdeal.Gen Idealize.ShloMosaic Idealize.ShloMosaic.TcCoe Idealize.ShloMosaic.StableHlo
open Cert.ReferenceIdeal.Read

variable (Wv : Valuation τ sig (Elt Ideal))

/-- No operation of the stretch writes `main_arg0`. -/
theorem keep_main_arg0 : after (hostOps0 (F := Ideal)) Wv (Proc.devRef .tc main_arg0) = Wv (Proc.devRef .tc main_arg0) := by
  after_results <;> rfl

/-- No operation of the stretch writes `main_arg2`. -/
theorem keep_main_arg2 : after (hostOps0 (F := Ideal)) Wv (Proc.devRef .tc main_arg2) = Wv (Proc.devRef .tc main_arg2) := by
  after_results <;> rfl

/-- No operation of the stretch writes `main_arg3`. -/
theorem keep_main_arg3 : after (hostOps0 (F := Ideal)) Wv (Proc.devRef .tc main_arg3) = Wv (Proc.devRef .tc main_arg3) := by
  after_results <;> rfl

/-- No operation of the stretch writes `main_arg5`. -/
theorem keep_main_arg5 : after (hostOps0 (F := Ideal)) Wv (Proc.devRef .tc main_arg5) = Wv (Proc.devRef .tc main_arg5) := by
  after_results <;> rfl

/-- No operation of the stretch writes `main_arg6`. -/
theorem keep_main_arg6 : after (hostOps0 (F := Ideal)) Wv (Proc.devRef .tc main_arg6) = Wv (Proc.devRef .tc main_arg6) := by
  after_results <;> rfl

/-- No operation of the stretch writes `main_arg7`. -/
theorem keep_main_arg7 : after (hostOps0 (F := Ideal)) Wv (Proc.devRef .tc main_arg7) = Wv (Proc.devRef .tc main_arg7) := by
  after_results <;> rfl

/-- No operation of the stretch writes `main_arg8`. -/
theorem keep_main_arg8 : after (hostOps0 (F := Ideal)) Wv (Proc.devRef .tc main_arg8) = Wv (Proc.devRef .tc main_arg8) := by
  after_results <;> rfl

/-- No operation of the stretch writes `main_arg9`. -/
theorem keep_main_arg9 : after (hostOps0 (F := Ideal)) Wv (Proc.devRef .tc main_arg9) = Wv (Proc.devRef .tc main_arg9) := by
  after_results <;> rfl

/-- No operation of the stretch writes `main_arg10`. -/
theorem keep_main_arg10 : after (hostOps0 (F := Ideal)) Wv (Proc.devRef .tc main_arg10) = Wv (Proc.devRef .tc main_arg10) := by
  after_results <;> rfl

/-- The source row of every edge. -/
theorem src : after (hostOps0 (F := Ideal)) Wv (Proc.devRef .tc main_v1)
    = val_main_v1 (F := Ideal) (Wv (Proc.devRef .tc main_arg1)) := by
  after_results <;> rfl

/-- The destination row of every edge. -/
theorem dst : after (hostOps0 (F := Ideal)) Wv (Proc.devRef .tc main_v3)
    = val_main_v3 (F := Ideal) (Wv (Proc.devRef .tc main_arg1)) := by
  after_results <;> rfl

/-- The node features summed over each node's incoming edges. -/
theorem agg : after (hostOps0 (F := Ideal)) Wv (Proc.devRef .tc main_v13)
    = val_main_v13 (F := Ideal) (Wv (Proc.devRef .tc main_arg0)) (Wv (Proc.devRef .tc main_arg1)) := by
  after_results <;> rfl

/-- The first bias as one row. -/
theorem bias : after (hostOps0 (F := Ideal)) Wv (Proc.devRef .tc main_v14)
    = shapeCast S1x64 (Wv (Proc.devRef .tc main_arg4)) shapeCasts_S64_S1x64 := by
  after_results <;> rfl

end Cert.KernelIdeal.Stretch0

end
-- ==== Proof.Stretch1.lean ====
/-
  The host operations between the first and the second sweep, from any contents in which the first
  layer's output and the edge rows hold the plain program's values: the same gather and
  sum-into-destination of the first layer's output, and the second bias reshaped to one row.
-/
import proofs.«106725_j20461224198769_1_alg».proof.Proof.Gen.KernelIdeal.Launch
import proofs.«106725_j20461224198769_1_alg».proof.Proof.Gen.ReferenceIdeal.Read
import Idealize.ShloMosaic.Lib.StableHlo.Run

noncomputable section

namespace Cert.KernelIdeal.Stretch1

open Cert.KernelIdeal Cert.KernelIdeal.Gen Idealize.ShloMosaic Idealize.ShloMosaic.TcCoe Idealize.ShloMosaic.StableHlo
open Cert.ReferenceIdeal.Read

variable (Wv : Valuation τ sig (Elt Ideal))

/-- No operation of the stretch writes `main_v15`. -/
theorem keep_main_v15 : after (hostOps1 (F := Ideal)) Wv (Proc.devRef .tc main_v15) = Wv (Proc.devRef .tc main_v15) := by
  after_results <;> rfl

/-- No operation of the stretch writes `main_v1`. -/
theorem keep_main_v1 : after (hostOps1 (F := Ideal)) Wv (Proc.devRef .tc main_v1) = Wv (Proc.devRef .tc main_v1) := by
  after_results <;> rfl

/-- No operation of the stretch writes `main_v3`. -/
theorem keep_main_v3 : after (hostOps1 (F := Ideal)) Wv (Proc.devRef .tc main_v3) = Wv (Proc.devRef .tc main_v3) := by
  after_results <;> rfl

/-- No operation of the stretch writes `main_arg2`. -/
theorem keep_main_arg2 : after (hostOps1 (F := Ideal)) Wv (Proc.devRef .tc main_arg2) = Wv (Proc.devRef .tc main_arg2) := by
  after_results <;> rfl

/-- No operation of the stretch writes `main_arg5`. -/
theorem keep_main_arg5 : after (hostOps1 (F := Ideal)) Wv (Proc.devRef .tc main_arg5) = Wv (Proc.devRef .tc main_arg5) := by
  after_results <;> rfl

/-- No operation of the stretch writes `main_arg7`. -/
theorem keep_main_arg7 : after (hostOps1 (F := Ideal)) Wv (Proc.devRef .tc main_arg7) = Wv (Proc.devRef .tc main_arg7) := by
  after_results <;> rfl

/-- No operation of the stretch writes `main_arg8`. -/
theorem keep_main_arg8 : after (hostOps1 (F := Ideal)) Wv (Proc.devRef .tc main_arg8) = Wv (Proc.devRef .tc main_arg8) := by
  after_results <;> rfl

/-- No operation of the stretch writes `main_arg9`. -/
theorem keep_main_arg9 : after (hostOps1 (F := Ideal)) Wv (Proc.devRef .tc main_arg9) = Wv (Proc.devRef .tc main_arg9) := by
  after_results <;> rfl

/-- No operation of the stretch writes `main_arg10`. -/
theorem keep_main_arg10 : after (hostOps1 (F := Ideal)) Wv (Proc.devRef .tc main_arg10) = Wv (Proc.devRef .tc main_arg10) := by
  after_results <;> rfl

/-- The first layer's output summed over each node's incoming edges. -/
theorem agg (x0 : (⟨Cert.ReferenceIdeal.S100000x9, .f32⟩ : BufTy).Contents (Elt Ideal)) (x1 : (⟨Cert.ReferenceIdeal.S2x1600000, .i32⟩ : BufTy).Contents (Elt Ideal)) (x3 : (⟨Cert.ReferenceIdeal.S64x9, .f32⟩ : BufTy).Contents (Elt Ideal)) (x4 : (⟨Cert.ReferenceIdeal.S64, .f32⟩ : BufTy).Contents (Elt Ideal))
    (h : Wv (Proc.devRef .tc main_v15) = val_main_v20 (F := Ideal) x0 x1 x3 x4)
    (hs : Wv (Proc.devRef .tc main_v1) = val_main_v1 (F := Ideal) x1)
    (hd : Wv (Proc.devRef .tc main_v3) = val_main_v3 (F := Ideal) x1) :
    after (hostOps1 (F := Ideal)) Wv (Proc.devRef .tc main_v25) = val_main_v30 (F := Ideal) x0 x1 x3 x4 := by
  after_results
  rw [h, hs, hd]
  rfl

/-- The second bias as one row. -/
theorem bias : after (hostOps1 (F := Ideal)) Wv (Proc.devRef .tc main_v26)
    = shapeCast S1x128 (Wv (Proc.devRef .tc main_arg6)) shapeCasts_S128_S1x128 := by
  after_results <;> rfl

end Cert.KernelIdeal.Stretch1

end
-- ==== Proof.Stretch2.lean ====
/-
  The host operations between the second and the third sweep, from any contents in which the second
  layer's output and the edge rows hold the plain program's values: the gather and
  sum-into-destination of the second layer's output, and the third bias reshaped to one row.
-/
import proofs.«106725_j20461224198769_1_alg».proof.Proof.Gen.KernelIdeal.Launch
import proofs.«106725_j20461224198769_1_alg».proof.Proof.Gen.ReferenceIdeal.Read
import Idealize.ShloMosaic.Lib.StableHlo.Run

noncomputable section

namespace Cert.KernelIdeal.Stretch2

open Cert.KernelIdeal Cert.KernelIdeal.Gen Idealize.ShloMosaic Idealize.ShloMosaic.TcCoe Idealize.ShloMosaic.StableHlo
open Cert.ReferenceIdeal.Read

variable (Wv : Valuation τ sig (Elt Ideal))

/-- No operation of the stretch writes `main_v27`. -/
theorem keep_main_v27 : after (hostOps2 (F := Ideal)) Wv (Proc.devRef .tc main_v27) = Wv (Proc.devRef .tc main_v27) := by
  after_results <;> rfl

/-- No operation of the stretch writes `main_arg2`. -/
theorem keep_main_arg2 : after (hostOps2 (F := Ideal)) Wv (Proc.devRef .tc main_arg2) = Wv (Proc.devRef .tc main_arg2) := by
  after_results <;> rfl

/-- No operation of the stretch writes `main_arg7`. -/
theorem keep_main_arg7 : after (hostOps2 (F := Ideal)) Wv (Proc.devRef .tc main_arg7) = Wv (Proc.devRef .tc main_arg7) := by
  after_results <;> rfl

/-- No operation of the stretch writes `main_arg9`. -/
theorem keep_main_arg9 : after (hostOps2 (F := Ideal)) Wv (Proc.devRef .tc main_arg9) = Wv (Proc.devRef .tc main_arg9) := by
  after_results <;> rfl

/-- No operation of the stretch writes `main_arg10`. -/
theorem keep_main_arg10 : after (hostOps2 (F := Ideal)) Wv (Proc.devRef .tc main_arg10) = Wv (Proc.devRef .tc main_arg10) := by
  after_results <;> rfl

/-- The second layer's output summed over each node's incoming edges. -/
theorem agg (x0 : (⟨Cert.ReferenceIdeal.S100000x9, .f32⟩ : BufTy).Contents (Elt Ideal)) (x1 : (⟨Cert.ReferenceIdeal.S2x1600000, .i32⟩ : BufTy).Contents (Elt Ideal)) (x3 : (⟨Cert.ReferenceIdeal.S64x9, .f32⟩ : BufTy).Contents (Elt Ideal)) (x4 : (⟨Cert.ReferenceIdeal.S64, .f32⟩ : BufTy).Contents (Elt Ideal)) (x5 : (⟨Cert.ReferenceIdeal.S128x64, .f32⟩ : BufTy).Contents (Elt Ideal)) (x6 : (⟨Cert.ReferenceIdeal.S128, .f32⟩ : BufTy).Contents (Elt Ideal))
    (h : Wv (Proc.devRef .tc main_v27) = val_main_v37 (F := Ideal) x0 x1 x3 x4 x5 x6)
    (hs : Wv (Proc.devRef .tc main_v1) = val_main_v1 (F := Ideal) x1)
    (hd : Wv (Proc.devRef .tc main_v3) = val_main_v3 (F := Ideal) x1) :
    after (hostOps2 (F := Ideal)) Wv (Proc.devRef .tc main_v37) = val_main_v47 (F := Ideal) x0 x1 x3 x4 x5 x6 := by
  after_results
  rw [h, hs, hd]
  rfl

/-- The third bias as one row. -/
theorem bias : after (hostOps2 (F := Ideal)) Wv (Proc.devRef .tc main_v38)
    = shapeCast S1x64 (Wv (Proc.devRef .tc main_arg8)) shapeCasts_S64_S1x64 := by
  after_results <;> rfl

end Cert.KernelIdeal.Stretch2

end
-- ==== Proof.Stretch3.lean ====
/-
  The host operations after the third sweep, from any contents in which the third layer's output holds
  the plain program's value: the per-graph sums and counts, the mean, and the classifier head — the
  plain program's last operations, applied to the same values.
-/
import proofs.«106725_j20461224198769_1_alg».proof.Proof.Gen.KernelIdeal.Launch
import proofs.«106725_j20461224198769_1_alg».proof.Proof.Gen.ReferenceIdeal.Read
import Idealize.ShloMosaic.Lib.StableHlo.Run

noncomputable section

namespace Cert.KernelIdeal.Stretch3

open Cert.KernelIdeal Cert.KernelIdeal.Gen Idealize.ShloMosaic Idealize.ShloMosaic.TcCoe Idealize.ShloMosaic.StableHlo
open Cert.ReferenceIdeal.Read

variable (Wv : Valuation τ sig (Elt Ideal))

set_option maxHeartbeats 2000000 in
/-- The program's result. -/
theorem result (x0 : (⟨Cert.ReferenceIdeal.S100000x9, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S64x9, .f32⟩ : BufTy).Contents (Elt Ideal)) (x4 : (⟨Cert.ReferenceIdeal.S64, .f32⟩ : BufTy).Contents (Elt Ideal)) (x5 : (⟨Cert.ReferenceIdeal.S128x64, .f32⟩ : BufTy).Contents (Elt Ideal)) (x6 : (⟨Cert.ReferenceIdeal.S128, .f32⟩ : BufTy).Contents (Elt Ideal)) (x7 : (⟨Cert.ReferenceIdeal.S64x128, .f32⟩ : BufTy).Contents (Elt Ideal)) (x8 : (⟨Cert.ReferenceIdeal.S64, .f32⟩ : BufTy).Contents (Elt Ideal)) (x9 : (⟨Cert.ReferenceIdeal.S11x64, .f32⟩ : BufTy).Contents (Elt Ideal)) (x10 : (⟨Cert.ReferenceIdeal.S11, .f32⟩ : BufTy).Contents (Elt Ideal))
    (h : Wv (Proc.devRef .tc main_v39) = val_main_v54 (F := Ideal) x0 x1 x3 x4 x5 x6 x7 x8)
    (hg : Wv (Proc.devRef .tc main_arg2) = x2)
    (hw : Wv (Proc.devRef .tc main_arg9) = x9)
    (hc : Wv (Proc.devRef .tc main_arg10) = x10) :
    after (hostOps3 (F := Ideal)) Wv (Proc.devRef .tc main_v56)
      = val_main_v71 (F := Ideal) x0 x1 x2 x3 x4 x5 x6 x7 x8 x9 x10 := by
  after_results_simp
  rw [h, hg, hw, hc]
  rfl

end Cert.KernelIdeal.Stretch3

end
-- ==== Proof.Gin0Pay.lean ====
/-
  The first message-passing layer, read at a single element of a row block.

  The block body adds the node features to the aggregated neighbour features, multiplies by the
  transposed weight matrix (a contraction over the input-feature axis), adds the bias row and clamps
  below at zero. A change of float format is the identity on the extended reals, so at an element
  (p, q) of the block the body's value is
      max (∑ k, (x (p,k) + a (p,k)) · w (q,k) + b (0,q)) 0 .
-/
import proofs.«106725_j20461224198769_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Layer0

open Cert.KernelIdeal Cert.KernelIdeal.Gen Idealize.ShloMosaic Idealize.ShloMosaic.ValueIdx
open scoped BigOperators

/-- The contraction of the block body: rows of the summed features against rows of the weights. -/
abbrev D : DotDims S5000x9 S64x9 S5000x64 := dot_S5000x9_S64x9_S5000x64_1_1_0_0_n_n

theorem lhs_row (i : S5000x64.Idx) (q : D.contr.Idx) : (D.lhsIdx i q 0).val = (i 0).val := by
  unfold DotDims.lhsIdx
  rw [dif_neg (show ¬(0 : Fin S5000x9.rank) ∈ D.lhsBatch by decide), dif_pos (show (0 : Fin S5000x9.rank) ∈ D.lhsNonContracting by decide)]
  rfl
theorem lhs_col (i : S5000x64.Idx) (q : D.contr.Idx) : (D.lhsIdx i q 1).val = (q ⟨0, by decide⟩).val :=
  D.lhsIdx_val_of_single rfl i q
theorem rhs_row (i : S5000x64.Idx) (q : D.contr.Idx) : (D.rhsIdx i q 0).val = (i 1).val := by
  unfold DotDims.rhsIdx
  rw [dif_neg (show ¬(0 : Fin S64x9.rank) ∈ D.rhsBatch by decide), dif_pos (show (0 : Fin S64x9.rank) ∈ D.rhsNonContracting by decide)]
  rfl
theorem rhs_col (i : S5000x64.Idx) (q : D.contr.Idx) : (D.rhsIdx i q 1).val = (q ⟨0, by decide⟩).val :=
  D.rhsIdx_val_of_single rfl i q

/-- The matrix product into a zero accumulator, at an element: the sum over the shared feature axis. -/
theorem matmul_at (l : FVec Ideal S5000x9 .bf16) (r : FVec Ideal S64x9 .bf16) (p : Fin 5000) (q : Fin 64) :
    matmul D none l r (constant S5000x64 .f32 0x00000000#32) (ix2 p q)
      = ∑ k : Fin 9, l (ix2 p k) * r (ix2 q k) := by
  refine (Ideal.matmul_constant_zero_apply D none l r (ix2 p q)).trans ?_
  rw [← Equiv.sum_comp (contrEquiv1 D 9 rfl rfl).symm]
  refine Finset.sum_congr rfl fun k _ => ?_
  have hk := contrEquiv1_symm_val D 9 rfl rfl k
  have el : D.lhsIdx (ix2 p q) ((contrEquiv1 D 9 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 9 rfl rfl).symm k) = ix2 q k := funext fun a => Fin.ext (by
    match a with
    | ⟨0, _⟩ => exact rhs_row _ _
    | ⟨1, _⟩ => exact (rhs_col _ _).trans hk)
  rw [el, er]

/-- The bias row spread over the block's rows, at an element: the bias of that column. -/
theorem bias_at (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

/-- The block body's stored value at element (p, q). -/
theorem pay_at (x0 x1 : Vec Ideal S5000x9 .f32) (x2 : Vec Ideal S64x9 .f32) (x3 : Vec Ideal S1x64 .f32)
    (p : Fin 5000) (q : Fin 64) :
    k0_pay1 x0 x1 x2 x3 (ix2 p q)
      = max ((∑ k : Fin 9, (x0 (ix2 p k) + x1 (ix2 p k)) * x2 (ix2 q k)) + x3 (ix2 (0 : Fin 1) q))
          (Ideal.ofBits .f32 0x00000000#32) := by
  unfold k0_pay1
  simp only [shapeCast_self]
  refine (maximumf_apply _ _ _).trans ?_
  refine congrArg₂ max ?_ rfl
  refine (addf_apply _ _ _).trans ?_
  refine congrArg₂ (· + ·) ?_ (bias_at x3 p q)
  exact matmul_at _ _ p q

end Cert.KernelIdeal.Layer0

end
-- ==== Proof.Gin0Arr.lean ====
/-
  The first layer's output array after its row-block sweep.

  Each of the twenty grid points writes one block of 5000 rows: the block body applied to the same
  5000 rows of the node features and of the aggregated neighbour features, and to the whole weight
  matrix and bias row. The blocks tile the rows, so the array ends as one function of the four
  arrays the sweep reads: entry (r, c) is  max (∑ k, (h (r,k) + a (r,k)) · w (c,k) + b (0,c)) 0.
-/
import proofs.«106725_j20461224198769_1_alg».proof.Proof.Gen.KernelIdeal.Frame
import proofs.«106725_j20461224198769_1_alg».proof.Proof.Gin0Pay

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

theorem hz : (![0, 0] : Fin 2 → Nat) = fun _ => 0 := funext fun a => by fin_cases a <;> rfl

/-- The layer as one function of the node features `h`, the aggregated neighbour features `a`, the
    weights `w` and the bias row `b`. -/
def lin (h a : S100000x9.Idx → EReal) (w : S64x9.Idx → EReal) (b : S1x64.Idx → EReal) : S100000x64.Idx → EReal := fun i =>
  max ((∑ k : Fin 9, (h (ix2 (n0 := 100000) (i 0) k) + a (ix2 (n0 := 100000) (i 0) k)) * w (ix2 (n0 := 64) (i 1) k))
        + b (ix2 (0 : Fin 1) (n1 := 64) (i 1)))
    (Ideal.ofBits .f32 0x00000000#32)

/-- What a grid point leaves in the output block, at element (p, q), from the four input blocks. -/
theorem out_at (x0 x1 : Vec Ideal S5000x9 .f32) (x2 : Vec Ideal S64x9 .f32) (x3 : Vec Ideal S1x64 .f32)
    (p : Fin 5000) (q : Fin 64) :
    out0_4 x0 x1 x2 x3 (ix2 p q)
      = max ((∑ k : Fin 9, (x0 (ix2 p k) + x1 (ix2 p k)) * x2 (ix2 q k)) + x3 (ix2 (0 : Fin 1) q))
          (Ideal.ofBits .f32 0x00000000#32) := by
  unfold out0_4
  rw [View.canon_unit_zero hz]
  simp only [View.ld_unit_zero (S := S5000x9) hz, View.ld_unit_zero (S := S64x9) hz, View.ld_unit_zero (S := S1x64) hz]
  exact pay_at x0 x1 x2 x3 p q

/-- The block index maps over the grid: the three row-blocked windows sit at block row `t`, the
    weights and the bias are fetched whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Row `p` of the node-feature block at point `t` is the array's row under the output block's row. -/
theorem rd0 (c : Dev nD) (t : Fin cfg0.N) (p : Fin 5000) (q : Fin 64) (k : Fin 9) :
    iblk0 V c 0 t (ix2 p k)
      = V c main_arg0 (ix2 (n0 := 100000) ((((cfg0.win 4).blk t).view.emb (ix2 p q)) 0) k) := by
  obtain ⟨e00, e01, e10, e11, e20, e21, e30, e31, e40, e41⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = win0_4.index t (0 : Fin 2) * 5000 + 1 * p.val; omega
  | ⟨1, _⟩ => show win0_0.index t (1 : Fin 2) * 9 + 1 * k.val = k.val; omega

/-- The same for the aggregated neighbour features. -/
theorem rd1 (c : Dev nD) (t : Fin cfg0.N) (p : Fin 5000) (q : Fin 64) (k : Fin 9) :
    iblk0 V c 1 t (ix2 p k)
      = V c main_v13 (ix2 (n0 := 100000) ((((cfg0.win 4).blk t).view.emb (ix2 p q)) 0) k) := by
  obtain ⟨e00, e01, e10, e11, e20, e21, e30, e31, e40, e41⟩ := idx_facts t
  show V c main_v13 (((cfg0.win 1).blk t).view.emb (ix2 p k)) = _
  refine congrArg (V c main_v13) (funext fun a => Fin.ext ?_)
  match a with
  | ⟨0, _⟩ => show win0_1.index t (0 : Fin 2) * 5000 + 1 * p.val = win0_4.index t (0 : Fin 2) * 5000 + 1 * p.val; omega
  | ⟨1, _⟩ => show win0_1.index t (1 : Fin 2) * 9 + 1 * k.val = k.val; omega

/-- The weights are fetched whole: row `q` of the block is row `q` of the matrix, the output's column. -/
theorem rd2 (c : Dev nD) (t : Fin cfg0.N) (p : Fin 5000) (q : Fin 64) (k : Fin 9) :
    iblk0 V c 2 t (ix2 q k)
      = V c main_arg3 (ix2 (n0 := 64) ((((cfg0.win 4).blk t).view.emb (ix2 p q)) 1) k) := by
  obtain ⟨e00, e01, e10, e11, e20, e21, e30, e31, e40, e41⟩ := idx_facts t
  show V c main_arg3 (((cfg0.win 2).blk t).view.emb (ix2 q k)) = _
  refine congrArg (V c main_arg3) (funext fun a => Fin.ext ?_)
  match a with
  | ⟨0, _⟩ => show win0_2.index t (0 : Fin 2) * 64 + 1 * q.val = win0_4.index t (1 : Fin 2) * 64 + 1 * q.val; omega
  | ⟨1, _⟩ => show win0_2.index t (1 : Fin 2) * 9 + 1 * k.val = k.val; omega

/-- The bias row is fetched whole. -/
theorem rd3 (c : Dev nD) (t : Fin cfg0.N) (p : Fin 5000) (q : Fin 64) :
    iblk0 V c 3 t (ix2 (0 : Fin 1) q)
      = V c main_v14 (ix2 (0 : Fin 1) (n1 := 64) ((((cfg0.win 4).blk t).view.emb (ix2 p q)) 1)) := by
  obtain ⟨e00, e01, e10, e11, e20, e21, e30, e31, e40, e41⟩ := idx_facts t
  show V c main_v14 (((cfg0.win 3).blk t).view.emb (ix2 (0 : Fin 1) q)) = _
  refine congrArg (V c main_v14) (funext fun a => Fin.ext ?_)
  match a with
  | ⟨0, _⟩ => show win0_3.index t (0 : Fin 2) * 1 + 1 * 0 = 0; omega
  | ⟨1, _⟩ => show win0_3.index t (1 : Fin 2) * 64 + 1 * q.val = win0_4.index t (1 : Fin 2) * 64 + 1 * q.val; omega

theorem flushed_eq (c : Dev nD) (t : Fin cfg0.N) :
    (dat0 V c).flushed 4 t = ((cfg0.win 4).blk t).view.read (Elt Ideal)
      (lin (V c main_arg0) (V c main_v13) (V c main_arg3) (V c main_v14)) := by
  show (cfg0.win 4).cut (grid0.coords t) ((dat0 V c).after 4 t) = _
  rw [after0_4]
  funext j
  obtain ⟨p, q, rfl⟩ : ∃ (p : Fin 5000) (q : Fin 64), j = ix2 p q := ⟨j 0, j 1, eq_ix2 j⟩
  show out0_4 (iblk0 V c 0 t) (iblk0 V c 1 t) (iblk0 V c 2 t) (iblk0 V c 3 t) (ix2 p q)
      = lin (V c main_arg0) (V c main_v13) (V c main_arg3) (V c main_v14) (((cfg0.win 4).blk t).view.emb (ix2 p q))
  refine (out_at _ _ _ _ p q).trans ?_
  unfold lin
  refine congrArg₂ max (congrArg₂ (· + ·) (Finset.sum_congr rfl fun k _ => ?_) (rd3 V c t p q)) rfl
  rw [rd0 V c t p q k, rd1 V c t p q k, rd2 V c t p q k]

/-- An index of the array lies in point `t`'s output block iff each coordinate is in the block's range. -/
theorem mem_blk (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v15).slice (win0_4.rect t)).set ↔ _
  rw [View.set_slice_whole, Rect.mem_set_unit]
  exact Iff.rfl

/-- Row `r` is written by the point `r / 5000`: the blocks tile the rows. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < 20; omega⟩, rfl⟩
  obtain ⟨e00, e01, e10, e11, e20, e21, e30, e31, e40, e41⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 64 ≤ (i 1).val ∧ (i 1).val < win0_4.index t (1 : Fin 2) * 64 + 64
    omega

/-- The output array after the sweep is the layer's function of the four arrays the sweep reads. -/
theorem arr_eq (c : Dev nD) :
    (dat0 V c).arrAt 4 cfg0.N = lin (V c main_arg0) (V c main_v13) (V c main_arg3) (V c main_v14) :=
  (dat0 V c).arrAt_eq_of_cover 4 _ (fun t _ => flushed_eq V c t) cover

end Cert.KernelIdeal.Layer0

end
-- ==== Proof.Gin1Pay.lean ====
/-
  The second message-passing layer, read at a single element of a row block.

  The block body adds the node features to the aggregated neighbour features, multiplies by the
  transposed weight matrix (a contraction over the input-feature axis), adds the bias row and clamps
  below at zero. A change of float format is the identity on the extended reals, so at an element
  (p, q) of the block the body's value is
      max (∑ k, (x (p,k) + a (p,k)) · w (q,k) + b (0,q)) 0 .
-/
import proofs.«106725_j20461224198769_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Layer1

open Cert.KernelIdeal Cert.KernelIdeal.Gen Idealize.ShloMosaic Idealize.ShloMosaic.ValueIdx
open scoped BigOperators

/-- The contraction of the block body: rows of the summed features against rows of the weights. -/
abbrev D : DotDims S5000x64 S128x64 S5000x128 := dot_S5000x64_S128x64_S5000x128_1_1_0_0_n_n

theorem lhs_row (i : S5000x128.Idx) (q : D.contr.Idx) : (D.lhsIdx i q 0).val = (i 0).val := by
  unfold DotDims.lhsIdx
  rw [dif_neg (show ¬(0 : Fin S5000x64.rank) ∈ D.lhsBatch by decide), dif_pos (show (0 : Fin S5000x64.rank) ∈ D.lhsNonContracting by decide)]
  rfl
theorem lhs_col (i : S5000x128.Idx) (q : D.contr.Idx) : (D.lhsIdx i q 1).val = (q ⟨0, by decide⟩).val :=
  D.lhsIdx_val_of_single rfl i q
theorem rhs_row (i : S5000x128.Idx) (q : D.contr.Idx) : (D.rhsIdx i q 0).val = (i 1).val := by
  unfold DotDims.rhsIdx
  rw [dif_neg (show ¬(0 : Fin S128x64.rank) ∈ D.rhsBatch by decide), dif_pos (show (0 : Fin S128x64.rank) ∈ D.rhsNonContracting by decide)]
  rfl
theorem rhs_col (i : S5000x128.Idx) (q : D.contr.Idx) : (D.rhsIdx i q 1).val = (q ⟨0, by decide⟩).val :=
  D.rhsIdx_val_of_single rfl i q

/-- The matrix product into a zero accumulator, at an element: the sum over the shared feature axis. -/
theorem matmul_at (l : FVec Ideal S5000x64 .bf16) (r : FVec Ideal S128x64 .bf16) (p : Fin 5000) (q : Fin 128) :
    matmul D none l r (constant S5000x128 .f32 0x00000000#32) (ix2 p q)
      = ∑ k : Fin 64, l (ix2 p k) * r (ix2 q k) := by
  refine (Ideal.matmul_constant_zero_apply D none l r (ix2 p q)).trans ?_
  rw [← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 64 rfl rfl).symm k) = ix2 q k := funext fun a => Fin.ext (by
    match a with
    | ⟨0, _⟩ => exact rhs_row _ _
    | ⟨1, _⟩ => exact (rhs_col _ _).trans hk)
  rw [el, er]

/-- The bias row spread over the block's rows, at an element: the bias of that column. -/
theorem bias_at (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => rfl
    | ⟨1, _⟩ => rfl)

/-- The block body's stored value at element (p, q). -/
theorem pay_at (x0 x1 : Vec Ideal S5000x64 .f32) (x2 : Vec Ideal S128x64 .f32) (x3 : Vec Ideal S1x128 .f32)
    (p : Fin 5000) (q : Fin 128) :
    k1_pay1 x0 x1 x2 x3 (ix2 p q)
      = max ((∑ k : Fin 64, (x0 (ix2 p k) + x1 (ix2 p k)) * x2 (ix2 q k)) + x3 (ix2 (0 : Fin 1) q))
          (Ideal.ofBits .f32 0x00000000#32) := by
  unfold k1_pay1
  simp only [shapeCast_self]
  refine (maximumf_apply _ _ _).trans ?_
  refine congrArg₂ max ?_ rfl
  refine (addf_apply _ _ _).trans ?_
  refine congrArg₂ (· + ·) ?_ (bias_at x3 p q)
  exact matmul_at _ _ p q

end Cert.KernelIdeal.Layer1

end
-- ==== Proof.Gin1Arr.lean ====
/-
  The second layer's output array after its row-block sweep.

  Each of the twenty grid points writes one block of 5000 rows: the block body applied to the same
  5000 rows of the node features and of the aggregated neighbour features, and to the whole weight
  matrix and bias row. The blocks tile the rows, so the array ends as one function of the four
  arrays the sweep reads: entry (r, c) is  max (∑ k, (h (r,k) + a (r,k)) · w (c,k) + b (0,c)) 0.
-/
import proofs.«106725_j20461224198769_1_alg».proof.Proof.Gen.KernelIdeal.Frame
import proofs.«106725_j20461224198769_1_alg».proof.Proof.Gin1Pay

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

theorem hz : (![0, 0] : Fin 2 → Nat) = fun _ => 0 := funext fun a => by fin_cases a <;> rfl

/-- The layer as one function of the node features `h`, the aggregated neighbour features `a`, the
    weights `w` and the bias row `b`. -/
def lin (h a : S100000x64.Idx → EReal) (w : S128x64.Idx → EReal) (b : S1x128.Idx → EReal) : S100000x128.Idx → EReal := fun i =>
  max ((∑ k : Fin 64, (h (ix2 (n0 := 100000) (i 0) k) + a (ix2 (n0 := 100000) (i 0) k)) * w (ix2 (n0 := 128) (i 1) k))
        + b (ix2 (0 : Fin 1) (n1 := 128) (i 1)))
    (Ideal.ofBits .f32 0x00000000#32)

/-- What a grid point leaves in the output block, at element (p, q), from the four input blocks. -/
theorem out_at (x0 x1 : Vec Ideal S5000x64 .f32) (x2 : Vec Ideal S128x64 .f32) (x3 : Vec Ideal S1x128 .f32)
    (p : Fin 5000) (q : Fin 128) :
    out1_4 x0 x1 x2 x3 (ix2 p q)
      = max ((∑ k : Fin 64, (x0 (ix2 p k) + x1 (ix2 p k)) * x2 (ix2 q k)) + x3 (ix2 (0 : Fin 1) q))
          (Ideal.ofBits .f32 0x00000000#32) := by
  unfold out1_4
  rw [View.canon_unit_zero hz]
  simp only [View.ld_unit_zero (S := S5000x64) hz, View.ld_unit_zero (S := S128x64) hz, View.ld_unit_zero (S := S1x128) hz]
  exact pay_at x0 x1 x2 x3 p q

/-- The block index maps over the grid: the three row-blocked windows sit at block row `t`, the
    weights and the bias are fetched whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row `p` of the node-feature block at point `t` is the array's row under the output block's row. -/
theorem rd0 (c : Dev nD) (t : Fin cfg1.N) (p : Fin 5000) (q : Fin 128) (k : Fin 64) :
    iblk1 V c 0 t (ix2 p k)
      = V c main_v15 (ix2 (n0 := 100000) ((((cfg1.win 4).blk t).view.emb (ix2 p q)) 0) k) := by
  obtain ⟨e00, e01, e10, e11, e20, e21, e30, e31, e40, e41⟩ := idx_facts t
  show V c main_v15 (((cfg1.win 0).blk t).view.emb (ix2 p k)) = _
  refine congrArg (V c main_v15) (funext fun a => Fin.ext ?_)
  match a with
  | ⟨0, _⟩ => show win1_0.index t (0 : Fin 2) * 5000 + 1 * p.val = win1_4.index t (0 : Fin 2) * 5000 + 1 * p.val; omega
  | ⟨1, _⟩ => show win1_0.index t (1 : Fin 2) * 64 + 1 * k.val = k.val; omega

/-- The same for the aggregated neighbour features. -/
theorem rd1 (c : Dev nD) (t : Fin cfg1.N) (p : Fin 5000) (q : Fin 128) (k : Fin 64) :
    iblk1 V c 1 t (ix2 p k)
      = V c main_v25 (ix2 (n0 := 100000) ((((cfg1.win 4).blk t).view.emb (ix2 p q)) 0) k) := by
  obtain ⟨e00, e01, e10, e11, e20, e21, e30, e31, e40, e41⟩ := idx_facts t
  show V c main_v25 (((cfg1.win 1).blk t).view.emb (ix2 p k)) = _
  refine congrArg (V c main_v25) (funext fun a => Fin.ext ?_)
  match a with
  | ⟨0, _⟩ => show win1_1.index t (0 : Fin 2) * 5000 + 1 * p.val = win1_4.index t (0 : Fin 2) * 5000 + 1 * p.val; omega
  | ⟨1, _⟩ => show win1_1.index t (1 : Fin 2) * 64 + 1 * k.val = k.val; omega

/-- The weights are fetched whole: row `q` of the block is row `q` of the matrix, the output's column. -/
theorem rd2 (c : Dev nD) (t : Fin cfg1.N) (p : Fin 5000) (q : Fin 128) (k : Fin 64) :
    iblk1 V c 2 t (ix2 q k)
      = V c main_arg5 (ix2 (n0 := 128) ((((cfg1.win 4).blk t).view.emb (ix2 p q)) 1) k) := by
  obtain ⟨e00, e01, e10, e11, e20, e21, e30, e31, e40, e41⟩ := idx_facts t
  show V c main_arg5 (((cfg1.win 2).blk t).view.emb (ix2 q k)) = _
  refine congrArg (V c main_arg5) (funext fun a => Fin.ext ?_)
  match a with
  | ⟨0, _⟩ => show win1_2.index t (0 : Fin 2) * 128 + 1 * q.val = win1_4.index t (1 : Fin 2) * 128 + 1 * q.val; omega
  | ⟨1, _⟩ => show win1_2.index t (1 : Fin 2) * 64 + 1 * k.val = k.val; omega

/-- The bias row is fetched whole. -/
theorem rd3 (c : Dev nD) (t : Fin cfg1.N) (p : Fin 5000) (q : Fin 128) :
    iblk1 V c 3 t (ix2 (0 : Fin 1) q)
      = V c main_v26 (ix2 (0 : Fin 1) (n1 := 128) ((((cfg1.win 4).blk t).view.emb (ix2 p q)) 1)) := by
  obtain ⟨e00, e01, e10, e11, e20, e21, e30, e31, e40, e41⟩ := idx_facts t
  show V c main_v26 (((cfg1.win 3).blk t).view.emb (ix2 (0 : Fin 1) q)) = _
  refine congrArg (V c main_v26) (funext fun a => Fin.ext ?_)
  match a with
  | ⟨0, _⟩ => show win1_3.index t (0 : Fin 2) * 1 + 1 * 0 = 0; omega
  | ⟨1, _⟩ => show win1_3.index t (1 : Fin 2) * 128 + 1 * q.val = win1_4.index t (1 : Fin 2) * 128 + 1 * q.val; omega

theorem flushed_eq (c : Dev nD) (t : Fin cfg1.N) :
    (dat1 V c).flushed 4 t = ((cfg1.win 4).blk t).view.read (Elt Ideal)
      (lin (V c main_v15) (V c main_v25) (V c main_arg5) (V c main_v26)) := by
  show (cfg1.win 4).cut (grid1.coords t) ((dat1 V c).after 4 t) = _
  rw [after1_4]
  funext j
  obtain ⟨p, q, rfl⟩ : ∃ (p : Fin 5000) (q : Fin 128), j = ix2 p q := ⟨j 0, j 1, eq_ix2 j⟩
  show out1_4 (iblk1 V c 0 t) (iblk1 V c 1 t) (iblk1 V c 2 t) (iblk1 V c 3 t) (ix2 p q)
      = lin (V c main_v15) (V c main_v25) (V c main_arg5) (V c main_v26) (((cfg1.win 4).blk t).view.emb (ix2 p q))
  refine (out_at _ _ _ _ p q).trans ?_
  unfold lin
  refine congrArg₂ max (congrArg₂ (· + ·) (Finset.sum_congr rfl fun k _ => ?_) (rd3 V c t p q)) rfl
  rw [rd0 V c t p q k, rd1 V c t p q k, rd2 V c t p q k]

/-- An index of the array lies in point `t`'s output block iff each coordinate is in the block's range. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- Row `r` is written by the point `r / 5000`: the blocks tile the rows. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨e00, e01, e10, e11, e20, e21, e30, e31, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- The output array after the sweep is the layer's function of the four arrays the sweep reads. -/
theorem arr_eq (c : Dev nD) :
    (dat1 V c).arrAt 4 cfg1.N = lin (V c main_v15) (V c main_v25) (V c main_arg5) (V c main_v26) :=
  (dat1 V c).arrAt_eq_of_cover 4 _ (fun t _ => flushed_eq V c t) cover

end Cert.KernelIdeal.Layer1

end
-- ==== Proof.Gin2Pay.lean ====
/-
  The third message-passing layer, read at a single element of a row block.

  The block body adds the node features to the aggregated neighbour features, multiplies by the
  transposed weight matrix (a contraction over the input-feature axis), adds the bias row and clamps
  below at zero. A change of float format is the identity on the extended reals, so at an element
  (p, q) of the block the body's value is
      max (∑ k, (x (p,k) + a (p,k)) · w (q,k) + b (0,q)) 0 .
-/
import proofs.«106725_j20461224198769_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Layer2

open Cert.KernelIdeal Cert.KernelIdeal.Gen Idealize.ShloMosaic Idealize.ShloMosaic.ValueIdx
open scoped BigOperators

/-- The contraction of the block body: rows of the summed features against rows of the weights. -/
abbrev D : DotDims S5000x128 S64x128 S5000x64 := dot_S5000x128_S64x128_S5000x64_1_1_0_0_n_n

theorem lhs_row (i : S5000x64.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_col (i : S5000x64.Idx) (q : D.contr.Idx) : (D.lhsIdx i q 1).val = (q ⟨0, by decide⟩).val :=
  D.lhsIdx_val_of_single rfl i q
theorem rhs_row (i : S5000x64.Idx) (q : D.contr.Idx) : (D.rhsIdx i q 0).val = (i 1).val := by
  unfold DotDims.rhsIdx
  rw [dif_neg (show ¬(0 : Fin S64x128.rank) ∈ D.rhsBatch by decide), dif_pos (show (0 : Fin S64x128.rank) ∈ D.rhsNonContracting by decide)]
  rfl
theorem rhs_col (i : S5000x64.Idx) (q : D.contr.Idx) : (D.rhsIdx i q 1).val = (q ⟨0, by decide⟩).val :=
  D.rhsIdx_val_of_single rfl i q

/-- The matrix product into a zero accumulator, at an element: the sum over the shared feature axis. -/
theorem matmul_at (l : FVec Ideal S5000x128 .bf16) (r : FVec Ideal S64x128 .bf16) (p : Fin 5000) (q : Fin 64) :
    matmul D none l r (constant S5000x64 .f32 0x00000000#32) (ix2 p q)
      = ∑ k : Fin 128, l (ix2 p k) * r (ix2 q k) := by
  refine (Ideal.matmul_constant_zero_apply D none l r (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (rhs_col _ _).trans hk)
  rw [el, er]

/-- The bias row spread over the block's rows, at an element: the bias of that column. -/
theorem bias_at (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => rfl
    | ⟨1, _⟩ => rfl)

/-- The block body's stored value at element (p, q). -/
theorem pay_at (x0 x1 : Vec Ideal S5000x128 .f32) (x2 : Vec Ideal S64x128 .f32) (x3 : Vec Ideal S1x64 .f32)
    (p : Fin 5000) (q : Fin 64) :
    k2_pay1 x0 x1 x2 x3 (ix2 p q)
      = max ((∑ k : Fin 128, (x0 (ix2 p k) + x1 (ix2 p k)) * x2 (ix2 q k)) + x3 (ix2 (0 : Fin 1) q))
          (Ideal.ofBits .f32 0x00000000#32) := by
  unfold k2_pay1
  simp only [shapeCast_self]
  refine (maximumf_apply _ _ _).trans ?_
  refine congrArg₂ max ?_ rfl
  refine (addf_apply _ _ _).trans ?_
  refine congrArg₂ (· + ·) ?_ (bias_at x3 p q)
  exact matmul_at _ _ p q

end Cert.KernelIdeal.Layer2

end
-- ==== Proof.Gin2Arr.lean ====
/-
  The third layer's output array after its row-block sweep.

  Each of the twenty grid points writes one block of 5000 rows: the block body applied to the same
  5000 rows of the node features and of the aggregated neighbour features, and to the whole weight
  matrix and bias row. The blocks tile the rows, so the array ends as one function of the four
  arrays the sweep reads: entry (r, c) is  max (∑ k, (h (r,k) + a (r,k)) · w (c,k) + b (0,c)) 0.
-/
import proofs.«106725_j20461224198769_1_alg».proof.Proof.Gen.KernelIdeal.Frame
import proofs.«106725_j20461224198769_1_alg».proof.Proof.Gin2Pay

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat)
open scoped BigOperators

theorem hz : (![0, 0] : Fin 2 → Nat) = fun _ => 0 := funext fun a => by fin_cases a <;> rfl

/-- The layer as one function of the node features `h`, the aggregated neighbour features `a`, the
    weights `w` and the bias row `b`. -/
def lin (h a : S100000x128.Idx → EReal) (w : S64x128.Idx → EReal) (b : S1x64.Idx → EReal) : S100000x64.Idx → EReal := fun i =>
  max ((∑ k : Fin 128, (h (ix2 (n0 := 100000) (i 0) k) + a (ix2 (n0 := 100000) (i 0) k)) * w (ix2 (n0 := 64) (i 1) k))
        + b (ix2 (0 : Fin 1) (n1 := 64) (i 1)))
    (Ideal.ofBits .f32 0x00000000#32)

/-- What a grid point leaves in the output block, at element (p, q), from the four input blocks. -/
theorem out_at (x0 x1 : Vec Ideal S5000x128 .f32) (x2 : Vec Ideal S64x128 .f32) (x3 : Vec Ideal S1x64 .f32)
    (p : Fin 5000) (q : Fin 64) :
    out2_4 x0 x1 x2 x3 (ix2 p q)
      = max ((∑ k : Fin 128, (x0 (ix2 p k) + x1 (ix2 p k)) * x2 (ix2 q k)) + x3 (ix2 (0 : Fin 1) q))
          (Ideal.ofBits .f32 0x00000000#32) := by
  unfold out2_4
  rw [View.canon_unit_zero hz]
  simp only [View.ld_unit_zero (S := S5000x128) hz, View.ld_unit_zero (S := S64x128) hz, View.ld_unit_zero (S := S1x64) hz]
  exact pay_at x0 x1 x2 x3 p q

/-- The block index maps over the grid: the three row-blocked windows sit at block row `t`, the
    weights and the bias are fetched whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- Row `p` of the node-feature block at point `t` is the array's row under the output block's row. -/
theorem rd0 (c : Dev nD) (t : Fin cfg2.N) (p : Fin 5000) (q : Fin 64) (k : Fin 128) :
    iblk2 V c 0 t (ix2 p k)
      = V c main_v27 (ix2 (n0 := 100000) ((((cfg2.win 4).blk t).view.emb (ix2 p q)) 0) k) := by
  obtain ⟨e00, e01, e10, e11, e20, e21, e30, e31, e40, e41⟩ := idx_facts t
  show V c main_v27 (((cfg2.win 0).blk t).view.emb (ix2 p k)) = _
  refine congrArg (V c main_v27) (funext fun a => Fin.ext ?_)
  match a with
  | ⟨0, _⟩ => show win2_0.index t (0 : Fin 2) * 5000 + 1 * p.val = win2_4.index t (0 : Fin 2) * 5000 + 1 * p.val; omega
  | ⟨1, _⟩ => show win2_0.index t (1 : Fin 2) * 128 + 1 * k.val = k.val; omega

/-- The same for the aggregated neighbour features. -/
theorem rd1 (c : Dev nD) (t : Fin cfg2.N) (p : Fin 5000) (q : Fin 64) (k : Fin 128) :
    iblk2 V c 1 t (ix2 p k)
      = V c main_v37 (ix2 (n0 := 100000) ((((cfg2.win 4).blk t).view.emb (ix2 p q)) 0) k) := by
  obtain ⟨e00, e01, e10, e11, e20, e21, e30, e31, e40, e41⟩ := idx_facts t
  show V c main_v37 (((cfg2.win 1).blk t).view.emb (ix2 p k)) = _
  refine congrArg (V c main_v37) (funext fun a => Fin.ext ?_)
  match a with
  | ⟨0, _⟩ => show win2_1.index t (0 : Fin 2) * 5000 + 1 * p.val = win2_4.index t (0 : Fin 2) * 5000 + 1 * p.val; omega
  | ⟨1, _⟩ => show win2_1.index t (1 : Fin 2) * 128 + 1 * k.val = k.val; omega

/-- The weights are fetched whole: row `q` of the block is row `q` of the matrix, the output's column. -/
theorem rd2 (c : Dev nD) (t : Fin cfg2.N) (p : Fin 5000) (q : Fin 64) (k : Fin 128) :
    iblk2 V c 2 t (ix2 q k)
      = V c main_arg7 (ix2 (n0 := 64) ((((cfg2.win 4).blk t).view.emb (ix2 p q)) 1) k) := by
  obtain ⟨e00, e01, e10, e11, e20, e21, e30, e31, e40, e41⟩ := idx_facts t
  show V c main_arg7 (((cfg2.win 2).blk t).view.emb (ix2 q k)) = _
  refine congrArg (V c main_arg7) (funext fun a => Fin.ext ?_)
  match a with
  | ⟨0, _⟩ => show win2_2.index t (0 : Fin 2) * 64 + 1 * q.val = win2_4.index t (1 : Fin 2) * 64 + 1 * q.val; omega
  | ⟨1, _⟩ => show win2_2.index t (1 : Fin 2) * 128 + 1 * k.val = k.val; omega

/-- The bias row is fetched whole. -/
theorem rd3 (c : Dev nD) (t : Fin cfg2.N) (p : Fin 5000) (q : Fin 64) :
    iblk2 V c 3 t (ix2 (0 : Fin 1) q)
      = V c main_v38 (ix2 (0 : Fin 1) (n1 := 64) ((((cfg2.win 4).blk t).view.emb (ix2 p q)) 1)) := by
  obtain ⟨e00, e01, e10, e11, e20, e21, e30, e31, e40, e41⟩ := idx_facts t
  show V c main_v38 (((cfg2.win 3).blk t).view.emb (ix2 (0 : Fin 1) q)) = _
  refine congrArg (V c main_v38) (funext fun a => Fin.ext ?_)
  match a with
  | ⟨0, _⟩ => show win2_3.index t (0 : Fin 2) * 1 + 1 * 0 = 0; omega
  | ⟨1, _⟩ => show win2_3.index t (1 : Fin 2) * 64 + 1 * q.val = win2_4.index t (1 : Fin 2) * 64 + 1 * q.val; omega

theorem flushed_eq (c : Dev nD) (t : Fin cfg2.N) :
    (dat2 V c).flushed 4 t = ((cfg2.win 4).blk t).view.read (Elt Ideal)
      (lin (V c main_v27) (V c main_v37) (V c main_arg7) (V c main_v38)) := by
  show (cfg2.win 4).cut (grid2.coords t) ((dat2 V c).after 4 t) = _
  rw [after2_4]
  funext j
  obtain ⟨p, q, rfl⟩ : ∃ (p : Fin 5000) (q : Fin 64), j = ix2 p q := ⟨j 0, j 1, eq_ix2 j⟩
  show out2_4 (iblk2 V c 0 t) (iblk2 V c 1 t) (iblk2 V c 2 t) (iblk2 V c 3 t) (ix2 p q)
      = lin (V c main_v27) (V c main_v37) (V c main_arg7) (V c main_v38) (((cfg2.win 4).blk t).view.emb (ix2 p q))
  refine (out_at _ _ _ _ p q).trans ?_
  unfold lin
  refine congrArg₂ max (congrArg₂ (· + ·) (Finset.sum_congr rfl fun k _ => ?_) (rd3 V c t p q)) rfl
  rw [rd0 V c t p q k, rd1 V c t p q k, rd2 V c t p q k]

/-- An index of the array lies in point `t`'s output block iff each coordinate is in the block's range. -/
theorem mem_blk (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v39).slice (win2_4.rect t)).set ↔ _
  rw [View.set_slice_whole, Rect.mem_set_unit]
  exact Iff.rfl

/-- Row `r` is written by the point `r / 5000`: the blocks tile the rows. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by show (i 0).val / 5000 < 20; omega⟩, rfl⟩
  obtain ⟨e00, e01, e10, e11, e20, e21, e30, e31, e40, e41⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 64 ≤ (i 1).val ∧ (i 1).val < win2_4.index t (1 : Fin 2) * 64 + 64
    omega

/-- The output array after the sweep is the layer's function of the four arrays the sweep reads. -/
theorem arr_eq (c : Dev nD) :
    (dat2 V c).arrAt 4 cfg2.N = lin (V c main_v27) (V c main_v37) (V c main_arg7) (V c main_v38) :=
  (dat2 V c).arrAt_eq_of_cover 4 _ (fun t _ => flushed_eq V c t) cover

end Cert.KernelIdeal.Layer2

end
-- ==== Proof.LayerBridge.lean ====
/-
  Each layer of the row-block program against the same layer of the plain program.

  The plain program forms h + a, multiplies by the transposed weights (a contraction over the
  input-feature axis), adds the bias broadcast over the rows and clamps below at zero. The row-block
  program's sweep computes, entry by entry, the same sum of products with the weights read
  untransposed, the bias read from its one-row reshape, and the same clamp. Only the spelling of the
  indices differs; no property of the extended reals beyond equality of the summands is used.
-/
import proofs.«106725_j20461224198769_1_alg».proof.Proof.Gin0Arr
import proofs.«106725_j20461224198769_1_alg».proof.Proof.Gin1Arr
import proofs.«106725_j20461224198769_1_alg».proof.Proof.Gin2Arr
import proofs.«106725_j20461224198769_1_alg».proof.Proof.Gen.ReferenceIdeal.Read
import Idealize.ShloMosaic.Lib.ValueLayout

noncomputable section

namespace Cert.Bridge

open Idealize.ShloMosaic Idealize.ShloMosaic.ValueIdx
open Cert.ReferenceIdeal Cert.ReferenceIdeal.Read
open scoped BigOperators

/-- layer0: the row-block sweep's function of the layer's input, its aggregated neighbours, the weights and the
    reshaped bias is the reference's transposed product, bias broadcast and clamp: entry by entry both are
    max (∑ k, (h (r,k) + a (r,k)) · w (c,k) + b c) 0. -/
theorem layer0 (x0 : (⟨S100000x9, .f32⟩ : BufTy).Contents (Elt Ideal)) (x1 : (⟨S2x1600000, .i32⟩ : BufTy).Contents (Elt Ideal)) (x3 : (⟨S64x9, .f32⟩ : BufTy).Contents (Elt Ideal)) (x4 : (⟨S64, .f32⟩ : BufTy).Contents (Elt Ideal))
    (hb : Cert.KernelIdeal.S64.ShapeCasts Cert.KernelIdeal.S1x64) :
    Cert.KernelIdeal.Layer0.lin x0 (val_main_v13 (F := Ideal) x0 x1) x3
        (shapeCast Cert.KernelIdeal.S1x64 x4 hb)
      = val_main_v20 (F := Ideal) x0 x1 x3 x4 := by
  funext i
  rw [val_main_v20_apply, val_main_v19_apply, val_main_v16_apply, val_main_v18_apply, val_main_v17_apply,
    val_main_call0_v0_apply, val_main_call0_cst_apply]
  unfold Cert.KernelIdeal.Layer0.lin
  show max (_ + _) _ = max (_ + _) _
  refine congrArg₂ max (congrArg₂ (· + ·) (Finset.sum_congr rfl fun k _ => ?_) ?_) rfl
  · rw [val_main_v14_apply, val_main_v15_apply]
    have e1 : lidx_main_v16 i k = ix2 (n0 := 100000) (i 0) k := funext fun a => by
      match a with
      | ⟨0, _⟩ => rfl
      | ⟨1, _⟩ => rfl
    have e2 : idx_main_v15 (ridx_main_v16 i k) = ix2 (n0 := 64) (i 1) k := funext fun a => by
      match a with
      | ⟨0, _⟩ => rfl
      | ⟨1, _⟩ => rfl
    rw [e1, e2]
    rfl
  · refine (shapeCast_a_1a_apply x4 hb (0 : Fin 1) (i 1)).trans ?_
    refine congrArg x4 (funext fun a => ?_)
    match a with
    | ⟨0, _⟩ => rfl

/-- layer1: the row-block sweep's function of the layer's input, its aggregated neighbours, the weights and the
    reshaped bias is the reference's transposed product, bias broadcast and clamp: entry by entry both are
    max (∑ k, (h (r,k) + a (r,k)) · w (c,k) + b c) 0. -/
theorem layer1 (x0 : (⟨S100000x9, .f32⟩ : BufTy).Contents (Elt Ideal)) (x1 : (⟨S2x1600000, .i32⟩ : BufTy).Contents (Elt Ideal)) (x3 : (⟨S64x9, .f32⟩ : BufTy).Contents (Elt Ideal)) (x4 : (⟨S64, .f32⟩ : BufTy).Contents (Elt Ideal)) (x5 : (⟨S128x64, .f32⟩ : BufTy).Contents (Elt Ideal)) (x6 : (⟨S128, .f32⟩ : BufTy).Contents (Elt Ideal))
    (hb : Cert.KernelIdeal.S128.ShapeCasts Cert.KernelIdeal.S1x128) :
    Cert.KernelIdeal.Layer1.lin (val_main_v20 (F := Ideal) x0 x1 x3 x4) (val_main_v30 (F := Ideal) x0 x1 x3 x4) x5
        (shapeCast Cert.KernelIdeal.S1x128 x6 hb)
      = val_main_v37 (F := Ideal) x0 x1 x3 x4 x5 x6 := by
  funext i
  rw [val_main_v37_apply, val_main_v36_apply, val_main_v33_apply, val_main_v35_apply, val_main_v34_apply,
    val_main_call1_v0_apply, val_main_call1_cst_apply]
  unfold Cert.KernelIdeal.Layer1.lin
  show max (_ + _) _ = max (_ + _) _
  refine congrArg₂ max (congrArg₂ (· + ·) (Finset.sum_congr rfl fun k _ => ?_) ?_) rfl
  · rw [val_main_v31_apply, val_main_v32_apply]
    have e1 : lidx_main_v33 i k = ix2 (n0 := 100000) (i 0) k := funext fun a => by
      match a with
      | ⟨0, _⟩ => rfl
      | ⟨1, _⟩ => rfl
    have e2 : idx_main_v32 (ridx_main_v33 i k) = ix2 (n0 := 128) (i 1) k := funext fun a => by
      match a with
      | ⟨0, _⟩ => rfl
      | ⟨1, _⟩ => rfl
    rw [e1, e2]
    rfl
  · refine (shapeCast_a_1a_apply x6 hb (0 : Fin 1) (i 1)).trans ?_
    refine congrArg x6 (funext fun a => ?_)
    match a with
    | ⟨0, _⟩ => rfl

/-- layer2: the row-block sweep's function of the layer's input, its aggregated neighbours, the weights and the
    reshaped bias is the reference's transposed product, bias broadcast and clamp: entry by entry both are
    max (∑ k, (h (r,k) + a (r,k)) · w (c,k) + b c) 0. -/
theorem layer2 (x0 : (⟨S100000x9, .f32⟩ : BufTy).Contents (Elt Ideal)) (x1 : (⟨S2x1600000, .i32⟩ : BufTy).Contents (Elt Ideal)) (x3 : (⟨S64x9, .f32⟩ : BufTy).Contents (Elt Ideal)) (x4 : (⟨S64, .f32⟩ : BufTy).Contents (Elt Ideal)) (x5 : (⟨S128x64, .f32⟩ : BufTy).Contents (Elt Ideal)) (x6 : (⟨S128, .f32⟩ : BufTy).Contents (Elt Ideal)) (x7 : (⟨S64x128, .f32⟩ : BufTy).Contents (Elt Ideal)) (x8 : (⟨S64, .f32⟩ : BufTy).Contents (Elt Ideal))
    (hb : Cert.KernelIdeal.S64.ShapeCasts Cert.KernelIdeal.S1x64) :
    Cert.KernelIdeal.Layer2.lin (val_main_v37 (F := Ideal) x0 x1 x3 x4 x5 x6) (val_main_v47 (F := Ideal) x0 x1 x3 x4 x5 x6) x7
        (shapeCast Cert.KernelIdeal.S1x64 x8 hb)
      = val_main_v54 (F := Ideal) x0 x1 x3 x4 x5 x6 x7 x8 := by
  funext i
  rw [val_main_v54_apply, val_main_v53_apply, val_main_v50_apply, val_main_v52_apply, val_main_v51_apply,
    val_main_call2_v0_apply, val_main_call2_cst_apply]
  unfold Cert.KernelIdeal.Layer2.lin
  show max (_ + _) _ = max (_ + _) _
  refine congrArg₂ max (congrArg₂ (· + ·) (Finset.sum_congr rfl fun k _ => ?_) ?_) rfl
  · rw [val_main_v48_apply, val_main_v49_apply]
    have e1 : lidx_main_v50 i k = ix2 (n0 := 100000) (i 0) k := funext fun a => by
      match a with
      | ⟨0, _⟩ => rfl
      | ⟨1, _⟩ => rfl
    have e2 : idx_main_v49 (ridx_main_v50 i k) = ix2 (n0 := 64) (i 1) k := funext fun a => by
      match a with
      | ⟨0, _⟩ => rfl
      | ⟨1, _⟩ => rfl
    rw [e1, e2]
    rfl
  · refine (shapeCast_a_1a_apply x8 hb (0 : Fin 1) (i 1)).trans ?_
    refine congrArg x8 (funext fun a => ?_)
    match a with
    | ⟨0, _⟩ => rfl

end Cert.Bridge

end
-- ==== Proof.Boundaries.lean ====
/-
  The contents of the buffers at each boundary between the program's segments, in terms of the
  program's arguments.

  Walking the seven segments in order: after the first host stretch the aggregated neighbour
  features are the plain program's; the first sweep leaves the first layer's output, which is the
  plain program's first layer; the next stretch aggregates that output exactly as the plain program
  does; and so on through the third sweep and the pooling and classifier stretch. At every boundary
  each buffer a later segment reads holds the plain program's value of the same arguments, so the
  result buffer ends at the plain program's result.
-/
import proofs.«106725_j20461224198769_1_alg».proof.Proof.RunResult
import proofs.«106725_j20461224198769_1_alg».proof.Proof.Stretch0
import proofs.«106725_j20461224198769_1_alg».proof.Proof.Stretch1
import proofs.«106725_j20461224198769_1_alg».proof.Proof.Stretch2
import proofs.«106725_j20461224198769_1_alg».proof.Proof.Stretch3
import proofs.«106725_j20461224198769_1_alg».proof.Proof.LayerBridge

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Cert.ReferenceIdeal.Read

variable (m : (ℓ : Loc nD τ sig) → Buf (Elt Ideal) ℓ) (ρ : Dev nD → PrngReg) (c : Dev nD)

/-! ## After the first host stretch -/
theorem b1_arg0 : W1 m ρ c (Proc.devRef .tc main_arg0) = (m ((c : Thread nD τ).loc main_arg0)) := Stretch0.keep_main_arg0 (W0 m ρ c)
theorem b1_arg2 : W1 m ρ c (Proc.devRef .tc main_arg2) = (m ((c : Thread nD τ).loc main_arg2)) := Stretch0.keep_main_arg2 (W0 m ρ c)
theorem b1_arg3 : W1 m ρ c (Proc.devRef .tc main_arg3) = (m ((c : Thread nD τ).loc main_arg3)) := Stretch0.keep_main_arg3 (W0 m ρ c)
theorem b1_arg5 : W1 m ρ c (Proc.devRef .tc main_arg5) = (m ((c : Thread nD τ).loc main_arg5)) := Stretch0.keep_main_arg5 (W0 m ρ c)
theorem b1_arg6 : W1 m ρ c (Proc.devRef .tc main_arg6) = (m ((c : Thread nD τ).loc main_arg6)) := Stretch0.keep_main_arg6 (W0 m ρ c)
theorem b1_arg7 : W1 m ρ c (Proc.devRef .tc main_arg7) = (m ((c : Thread nD τ).loc main_arg7)) := Stretch0.keep_main_arg7 (W0 m ρ c)
theorem b1_arg8 : W1 m ρ c (Proc.devRef .tc main_arg8) = (m ((c : Thread nD τ).loc main_arg8)) := Stretch0.keep_main_arg8 (W0 m ρ c)
theorem b1_arg9 : W1 m ρ c (Proc.devRef .tc main_arg9) = (m ((c : Thread nD τ).loc main_arg9)) := Stretch0.keep_main_arg9 (W0 m ρ c)
theorem b1_arg10 : W1 m ρ c (Proc.devRef .tc main_arg10) = (m ((c : Thread nD τ).loc main_arg10)) := Stretch0.keep_main_arg10 (W0 m ρ c)
theorem b1_src : W1 m ρ c (Proc.devRef .tc main_v1) = val_main_v1 (F := Ideal) (m ((c : Thread nD τ).loc main_arg1)) := Stretch0.src (W0 m ρ c)
theorem b1_dst : W1 m ρ c (Proc.devRef .tc main_v3) = val_main_v3 (F := Ideal) (m ((c : Thread nD τ).loc main_arg1)) := Stretch0.dst (W0 m ρ c)
theorem b1_agg : W1 m ρ c (Proc.devRef .tc main_v13) = val_main_v13 (F := Ideal) (m ((c : Thread nD τ).loc main_arg0)) (m ((c : Thread nD τ).loc main_arg1)) := Stretch0.agg (W0 m ρ c)
theorem b1_bias : W1 m ρ c (Proc.devRef .tc main_v14) = shapeCast S1x64 (m ((c : Thread nD τ).loc main_arg4)) shapeCasts_S64_S1x64 := Stretch0.bias (W0 m ρ c)

/-! ## After the first sweep -/

/-- The first layer's output is the plain program's first layer. -/
theorem b2_out : W2 m ρ c (Proc.devRef .tc main_v15) = val_main_v20 (F := Ideal) (m ((c : Thread nD τ).loc main_arg0)) (m ((c : Thread nD τ).loc main_arg1)) (m ((c : Thread nD τ).loc main_arg3)) (m ((c : Thread nD τ).loc main_arg4)) :=
  (W2_arr m ρ c 4).trans ((Layer0.arr_eq (V1 m ρ) c).trans (by
    rw [show V1 m ρ c main_arg0 = _ from b1_arg0 m ρ c, show V1 m ρ c main_v13 = _ from b1_agg m ρ c,
      show V1 m ρ c main_arg3 = _ from b1_arg3 m ρ c, show V1 m ρ c main_v14 = _ from b1_bias m ρ c]
    exact Cert.Bridge.layer0 _ _ _ _ _))
theorem b2_arg2 : W2 m ρ c (Proc.devRef .tc main_arg2) = (m ((c : Thread nD τ).loc main_arg2)) := (W2_of_ne m ρ c main_arg2 (by decide)).trans (b1_arg2 m ρ c)
theorem b2_arg5 : W2 m ρ c (Proc.devRef .tc main_arg5) = (m ((c : Thread nD τ).loc main_arg5)) := (W2_of_ne m ρ c main_arg5 (by decide)).trans (b1_arg5 m ρ c)
theorem b2_arg6 : W2 m ρ c (Proc.devRef .tc main_arg6) = (m ((c : Thread nD τ).loc main_arg6)) := (W2_of_ne m ρ c main_arg6 (by decide)).trans (b1_arg6 m ρ c)
theorem b2_arg7 : W2 m ρ c (Proc.devRef .tc main_arg7) = (m ((c : Thread nD τ).loc main_arg7)) := (W2_of_ne m ρ c main_arg7 (by decide)).trans (b1_arg7 m ρ c)
theorem b2_arg8 : W2 m ρ c (Proc.devRef .tc main_arg8) = (m ((c : Thread nD τ).loc main_arg8)) := (W2_of_ne m ρ c main_arg8 (by decide)).trans (b1_arg8 m ρ c)
theorem b2_arg9 : W2 m ρ c (Proc.devRef .tc main_arg9) = (m ((c : Thread nD τ).loc main_arg9)) := (W2_of_ne m ρ c main_arg9 (by decide)).trans (b1_arg9 m ρ c)
theorem b2_arg10 : W2 m ρ c (Proc.devRef .tc main_arg10) = (m ((c : Thread nD τ).loc main_arg10)) := (W2_of_ne m ρ c main_arg10 (by decide)).trans (b1_arg10 m ρ c)
theorem b2_src : W2 m ρ c (Proc.devRef .tc main_v1) = val_main_v1 (F := Ideal) (m ((c : Thread nD τ).loc main_arg1)) := (W2_of_ne m ρ c main_v1 (by decide)).trans (b1_src m ρ c)
theorem b2_dst : W2 m ρ c (Proc.devRef .tc main_v3) = val_main_v3 (F := Ideal) (m ((c : Thread nD τ).loc main_arg1)) := (W2_of_ne m ρ c main_v3 (by decide)).trans (b1_dst m ρ c)

/-! ## After the second host stretch -/

theorem b3_in : W3 m ρ c (Proc.devRef .tc main_v15) = val_main_v20 (F := Ideal) (m ((c : Thread nD τ).loc main_arg0)) (m ((c : Thread nD τ).loc main_arg1)) (m ((c : Thread nD τ).loc main_arg3)) (m ((c : Thread nD τ).loc main_arg4)) :=
  (Stretch1.keep_main_v15 (W2 m ρ c)).trans (b2_out m ρ c)
theorem b3_agg : W3 m ρ c (Proc.devRef .tc main_v25) = val_main_v30 (F := Ideal) (m ((c : Thread nD τ).loc main_arg0)) (m ((c : Thread nD τ).loc main_arg1)) (m ((c : Thread nD τ).loc main_arg3)) (m ((c : Thread nD τ).loc main_arg4)) :=
  Stretch1.agg (W2 m ρ c) _ _ _ _ (b2_out m ρ c) (b2_src m ρ c) (b2_dst m ρ c)
theorem b3_bias : W3 m ρ c (Proc.devRef .tc main_v26) = shapeCast S1x128 (m ((c : Thread nD τ).loc main_arg6)) shapeCasts_S128_S1x128 :=
  (Stretch1.bias (W2 m ρ c)).trans (congrArg (fun x => shapeCast S1x128 x shapeCasts_S128_S1x128) (b2_arg6 m ρ c))
theorem b3_arg2 : W3 m ρ c (Proc.devRef .tc main_arg2) = (m ((c : Thread nD τ).loc main_arg2)) := (Stretch1.keep_main_arg2 (W2 m ρ c)).trans (b2_arg2 m ρ c)
theorem b3_arg5 : W3 m ρ c (Proc.devRef .tc main_arg5) = (m ((c : Thread nD τ).loc main_arg5)) := (Stretch1.keep_main_arg5 (W2 m ρ c)).trans (b2_arg5 m ρ c)
theorem b3_arg7 : W3 m ρ c (Proc.devRef .tc main_arg7) = (m ((c : Thread nD τ).loc main_arg7)) := (Stretch1.keep_main_arg7 (W2 m ρ c)).trans (b2_arg7 m ρ c)
theorem b3_arg8 : W3 m ρ c (Proc.devRef .tc main_arg8) = (m ((c : Thread nD τ).loc main_arg8)) := (Stretch1.keep_main_arg8 (W2 m ρ c)).trans (b2_arg8 m ρ c)
theorem b3_arg9 : W3 m ρ c (Proc.devRef .tc main_arg9) = (m ((c : Thread nD τ).loc main_arg9)) := (Stretch1.keep_main_arg9 (W2 m ρ c)).trans (b2_arg9 m ρ c)
theorem b3_arg10 : W3 m ρ c (Proc.devRef .tc main_arg10) = (m ((c : Thread nD τ).loc main_arg10)) := (Stretch1.keep_main_arg10 (W2 m ρ c)).trans (b2_arg10 m ρ c)
theorem b3_src : W3 m ρ c (Proc.devRef .tc main_v1) = val_main_v1 (F := Ideal) (m ((c : Thread nD τ).loc main_arg1)) := (Stretch1.keep_main_v1 (W2 m ρ c)).trans (b2_src m ρ c)
theorem b3_dst : W3 m ρ c (Proc.devRef .tc main_v3) = val_main_v3 (F := Ideal) (m ((c : Thread nD τ).loc main_arg1)) := (Stretch1.keep_main_v3 (W2 m ρ c)).trans (b2_dst m ρ c)

/-! ## After the second sweep -/

/-- The second layer's output is the plain program's second layer. -/
theorem b4_out : W4 m ρ c (Proc.devRef .tc main_v27) = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W4_arr m ρ c 4).trans ((Layer1.arr_eq (V3 m ρ) c).trans (by
    rw [show V3 m ρ c main_v15 = _ from b3_in m ρ c, show V3 m ρ c main_v25 = _ from b3_agg m ρ c,
      show V3 m ρ c main_arg5 = _ from b3_arg5 m ρ c, show V3 m ρ c main_v26 = _ from b3_bias m ρ c]
    exact Cert.Bridge.layer1 _ _ _ _ _ _ _))
theorem b4_arg2 : W4 m ρ c (Proc.devRef .tc main_arg2) = (m ((c : Thread nD τ).loc main_arg2)) := (W4_of_ne m ρ c main_arg2 (by decide)).trans (b3_arg2 m ρ c)
theorem b4_arg7 : W4 m ρ c (Proc.devRef .tc main_arg7) = (m ((c : Thread nD τ).loc main_arg7)) := (W4_of_ne m ρ c main_arg7 (by decide)).trans (b3_arg7 m ρ c)
theorem b4_arg8 : W4 m ρ c (Proc.devRef .tc main_arg8) = (m ((c : Thread nD τ).loc main_arg8)) := (W4_of_ne m ρ c main_arg8 (by decide)).trans (b3_arg8 m ρ c)
theorem b4_arg9 : W4 m ρ c (Proc.devRef .tc main_arg9) = (m ((c : Thread nD τ).loc main_arg9)) := (W4_of_ne m ρ c main_arg9 (by decide)).trans (b3_arg9 m ρ c)
theorem b4_arg10 : W4 m ρ c (Proc.devRef .tc main_arg10) = (m ((c : Thread nD τ).loc main_arg10)) := (W4_of_ne m ρ c main_arg10 (by decide)).trans (b3_arg10 m ρ c)
theorem b4_src : W4 m ρ c (Proc.devRef .tc main_v1) = val_main_v1 (F := Ideal) (m ((c : Thread nD τ).loc main_arg1)) := (W4_of_ne m ρ c main_v1 (by decide)).trans (b3_src m ρ c)
theorem b4_dst : W4 m ρ c (Proc.devRef .tc main_v3) = val_main_v3 (F := Ideal) (m ((c : Thread nD τ).loc main_arg1)) := (W4_of_ne m ρ c main_v3 (by decide)).trans (b3_dst m ρ c)

/-! ## After the third host stretch -/

theorem b5_in : W5 m ρ c (Proc.devRef .tc main_v27) = val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (Stretch2.keep_main_v27 (W4 m ρ c)).trans (b4_out m ρ c)
theorem b5_agg : W5 m ρ c (Proc.devRef .tc main_v37) = val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  Stretch2.agg (W4 m ρ c) _ _ _ _ _ _ (b4_out m ρ c) (b4_src m ρ c) (b4_dst m ρ c)
theorem b5_bias : W5 m ρ c (Proc.devRef .tc main_v38) = shapeCast S1x64 (m ((c : Thread nD τ).loc main_arg8)) shapeCasts_S64_S1x64 :=
  (Stretch2.bias (W4 m ρ c)).trans (congrArg (fun x => shapeCast S1x64 x shapeCasts_S64_S1x64) (b4_arg8 m ρ c))
theorem b5_arg2 : W5 m ρ c (Proc.devRef .tc main_arg2) = (m ((c : Thread nD τ).loc main_arg2)) := (Stretch2.keep_main_arg2 (W4 m ρ c)).trans (b4_arg2 m ρ c)
theorem b5_arg7 : W5 m ρ c (Proc.devRef .tc main_arg7) = (m ((c : Thread nD τ).loc main_arg7)) := (Stretch2.keep_main_arg7 (W4 m ρ c)).trans (b4_arg7 m ρ c)
theorem b5_arg9 : W5 m ρ c (Proc.devRef .tc main_arg9) = (m ((c : Thread nD τ).loc main_arg9)) := (Stretch2.keep_main_arg9 (W4 m ρ c)).trans (b4_arg9 m ρ c)
theorem b5_arg10 : W5 m ρ c (Proc.devRef .tc main_arg10) = (m ((c : Thread nD τ).loc main_arg10)) := (Stretch2.keep_main_arg10 (W4 m ρ c)).trans (b4_arg10 m ρ c)

/-! ## After the third sweep -/

/-- The third layer's output is the plain program's third layer. -/
theorem b6_out : W6 m ρ c (Proc.devRef .tc main_v39) = val_main_v54 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 4).trans ((Layer2.arr_eq (V5 m ρ) c).trans (by
    rw [show V5 m ρ c main_v27 = _ from b5_in m ρ c, show V5 m ρ c main_v37 = _ from b5_agg m ρ c,
      show V5 m ρ c main_arg7 = _ from b5_arg7 m ρ c, show V5 m ρ c main_v38 = _ from b5_bias m ρ c]
    exact Cert.Bridge.layer2 _ _ _ _ _ _ _ _ _))
theorem b6_arg2 : W6 m ρ c (Proc.devRef .tc main_arg2) = (m ((c : Thread nD τ).loc main_arg2)) := (W6_of_ne m ρ c main_arg2 (by decide)).trans (b5_arg2 m ρ c)
theorem b6_arg9 : W6 m ρ c (Proc.devRef .tc main_arg9) = (m ((c : Thread nD τ).loc main_arg9)) := (W6_of_ne m ρ c main_arg9 (by decide)).trans (b5_arg9 m ρ c)
theorem b6_arg10 : W6 m ρ c (Proc.devRef .tc main_arg10) = (m ((c : Thread nD τ).loc main_arg10)) := (W6_of_ne m ρ c main_arg10 (by decide)).trans (b5_arg10 m ρ c)

/-! ## The result -/

/-- The result buffer ends at the plain program's result of the same arguments. -/
theorem result : W7 m ρ c (Proc.devRef .tc main_v56)
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Stretch3.result (W6 m ρ c) _ _ _ _ _ _ _ _ _ _ _ (b6_out m ρ c) (b6_arg2 m ρ c) (b6_arg9 m ρ c) (b6_arg10 m ρ c)

end Cert.KernelIdeal.Chain

end
-- ==== Proof.lean ====
/-
  The row-block message-passing program against the plain one.

  Both programs run three message-passing layers and then pool and classify. A layer takes node
  features h, sums them over each node's incoming edges to a, and returns max ((h + a) · wᵀ + b) 0.
  The plain program does this with a host matrix product; the row-block program does the gather and
  the sum-into-destination on the host, exactly as the plain program does, and the affine map and the
  clamp in a sweep over twenty blocks of 5000 rows. On the extended reals a change of float format is
  the identity and a matrix product is the sum of products, so block by block the sweep writes the
  same entries as the plain program's layer; the blocks tile the rows. The host operations around the
  sweeps are the plain program's own, applied to equal values. Hence the two results are equal, entry
  by entry; no property of the inputs is used. The ideal pass rewrote nothing, so the idealized
  program is the printed one read on the extended reals.
-/
import proofs.«106725_j20461224198769_1_alg».proof.Defs
import proofs.«106725_j20461224198769_1_alg».proof.Proof.Gen.Kernel
import proofs.«106725_j20461224198769_1_alg».proof.Proof.Gen.Kernel.Skeleton
import proofs.«106725_j20461224198769_1_alg».proof.Proof.Gen.Kernel.Launch
import proofs.«106725_j20461224198769_1_alg».proof.Proof.Gen.Kernel.Points
import proofs.«106725_j20461224198769_1_alg».proof.Proof.Gen.Kernel.Frame
import proofs.«106725_j20461224198769_1_alg».proof.Proof.Gen.KernelIdeal
import proofs.«106725_j20461224198769_1_alg».proof.Proof.Gen.KernelIdeal.Skeleton
import proofs.«106725_j20461224198769_1_alg».proof.Proof.Gen.KernelIdeal.Launch
import proofs.«106725_j20461224198769_1_alg».proof.Proof.Gen.KernelIdeal.Points
import proofs.«106725_j20461224198769_1_alg».proof.Proof.Gen.KernelIdeal.Frame
import proofs.«106725_j20461224198769_1_alg».proof.Proof.Gen.ReferenceIdeal
import proofs.«106725_j20461224198769_1_alg».proof.Proof.Gen.ReferenceIdeal.Run
import proofs.«106725_j20461224198769_1_alg».proof.Proof.Gen.ReferenceIdeal.Read
import proofs.«106725_j20461224198769_1_alg».proof.Proof.Gen.Pre_finite_inputs
import proofs.«106725_j20461224198769_1_alg».proof.Proof.Boundaries
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The plain program's run, its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at the plain program's result of those
    arguments: the row-block program by the walk through its segment boundaries, the plain program by
    its own run read one operation at a time. -/
theorem algebraic : Cert.algebraic_KernelIdeal_ReferenceIdeal := by
  intro m ρ m' ρ' _ hagree
  refine ⟨fun c => Cert.KernelIdeal.Gen.W7 m ρ c (Proc.devRef .tc Cert.KernelIdeal.main_v56),
    Cert.KernelIdeal.Chain.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
